-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2x64 .f32) (main_arg9 : FVec F S2 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S2x64 .f32) (main_arg9 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1200000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S2x64 .f32) (main_arg9 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩
abbrev S10000x64 : Shape := ⟨2, ![10000, 64]⟩
abbrev S10000x1 : Shape := ⟨2, ![10000, 1]⟩
abbrev S1x2 : Shape := ⟨2, ![1, 2]⟩
abbrev S100000x2 : Shape := ⟨2, ![100000, 2]⟩
abbrev S10000x2 : Shape := ⟨2, ![10000, 2]⟩
abbrev S64x2 : Shape := ⟨2, ![64, 2]⟩

abbrev nBuf : Space → Nat
  | .hbm => 56
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S2x64, .f32⟩
  | .hbm, ⟨9, _⟩ => ⟨S2, .f32⟩
  | .hbm, ⟨10, _⟩ => ⟨S1x1200000, .i32⟩
  | .hbm, ⟨11, _⟩ => ⟨S1200000, .i32⟩
  | .hbm, ⟨12, _⟩ => ⟨S1x1200000, .i32⟩
  | .hbm, ⟨13, _⟩ => ⟨S1200000, .i32⟩
  | .hbm, ⟨14, _⟩ => ⟨S_, .f32⟩
  | .hbm, ⟨15, _⟩ => ⟨S1200000, .f32⟩
  | .hbm, ⟨16, _⟩ => ⟨S_, .f32⟩
  | .hbm, ⟨17, _⟩ => ⟨S100000, .f32⟩
  | .hbm, ⟨18, _⟩ => ⟨S1200000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1200000, .i32⟩
  | .hbm, ⟨27, _⟩ => ⟨S1200000, .i1⟩
  | .hbm, ⟨28, _⟩ => ⟨S_, .i32⟩
  | .hbm, ⟨29, _⟩ => ⟨S1200000, .i32⟩
  | .hbm, ⟨30, _⟩ => ⟨S1200000, .i32⟩
  | .hbm, ⟨31, _⟩ => ⟨S1200000, .i32⟩
  | .hbm, ⟨32, _⟩ => ⟨S1200000x1, .i32⟩
  | .hbm, ⟨33, _⟩ => ⟨S1200000x64, .f32⟩
  | .hbm, ⟨34, _⟩ => ⟨S_, .f32⟩
  | .hbm, ⟨35, _⟩ => ⟨S100000x64, .f32⟩
  | .hbm, ⟨36, _⟩ => ⟨S1200000x1, .i32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S_, .i32⟩
  | .hbm, ⟨41, _⟩ => ⟨S1200000, .i32⟩
  | .hbm, ⟨42, _⟩ => ⟨S1200000, .i1⟩
  | .hbm, ⟨43, _⟩ => ⟨S_, .i32⟩
  | .hbm, ⟨44, _⟩ => ⟨S1200000, .i32⟩
  | .hbm, ⟨45, _⟩ => ⟨S1200000, .i32⟩
  | .hbm, ⟨46, _⟩ => ⟨S1200000, .i32⟩
  | .hbm, ⟨47, _⟩ => ⟨S1200000x1, .i32⟩
  | .hbm, ⟨48, _⟩ => ⟨S1200000x64, .f32⟩
  | .hbm, ⟨49, _⟩ => ⟨S_, .f32⟩
  | .hbm, ⟨50, _⟩ => ⟨S100000x64, .f32⟩
  | .hbm, ⟨51, _⟩ => ⟨S1200000x1, .i32⟩
  | .hbm, ⟨52, _⟩ => ⟨S100000x64, .f32⟩
  | .hbm, ⟨53, _⟩ => ⟨S1x64, .f32⟩
  | .hbm, ⟨54, _⟩ => ⟨S1x2, .f32⟩
  | .hbm, ⟨55, _⟩ => ⟨S100000x2, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x1, .f32⟩
  | .local _ .vmem, ⟨5, _⟩ => ⟨S10000x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x1, .f32⟩
  | .local _ .vmem, ⟨16, _⟩ => ⟨S10000x1, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S2x64, .f32⟩
  | .local _ .vmem, ⟨21, _⟩ => ⟨S1x2, .f32⟩
  | .local _ .vmem, ⟨22, _⟩ => ⟨S10000x2, .f32⟩
  | .local _ .vmem, ⟨23, _⟩ => ⟨S10000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S100000_S100000x1 : S100000.ShapeCasts S100000x1
  bcast_S_S100000x64 : S_.BroadcastsInDim S100000x64 (![] : Fin 0 → Fin S100000x64.rank)
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S2_S1x2 : S2.ShapeCasts S1x2
  inb_S2x64_S2x64_0_0 : ∀ a, (![0, 0] : Fin 2 → Nat) a + S2x64.size a ≤ S2x64.size a
  h_S2x64 : 0 < S2x64.numel
  transposes_S2x64_p1_0_S64x2 : S2x64.Transposes [1, 0] S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2x64.size a ≤ S2x64.size a
  hwx1_6 : ∀ i : grid1.Coords, EltTy.bits .f32 = 32 ∨ (Rect.block (s := S2x64) S2x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2.size a ≤ S1x2.size a
  hwx1_7 : ∀ i : grid1.Coords, EltTy.bits .f32 = 32 ∨ (Rect.block (s := S1x2) S1x2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x2.size a ≤ S100000x2.size a
  hwx1_8 : ∀ i : grid1.Coords, EltTy.bits .f32 = 32 ∨ (Rect.block (s := S100000x2) S10000x2.size (cc1_transform_8 i) (hinb1_8 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_v19) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S2x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S1x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S10000x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 90
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S2x64, .f32⟩
  | .hbm, ⟨9, _⟩ => ⟨S2, .f32⟩
  | .hbm, ⟨10, _⟩ => ⟨S1x1200000, .i32⟩
  | .hbm, ⟨11, _⟩ => ⟨S1200000, .i32⟩
  | .hbm, ⟨12, _⟩ => ⟨S1x1200000, .i32⟩
  | .hbm, ⟨13, _⟩ => ⟨S1200000, .i32⟩
  | .hbm, ⟨14, _⟩ => ⟨S_, .i32⟩
  | .hbm, ⟨15, _⟩ => ⟨S1200000, .i32⟩
  | .hbm, ⟨16, _⟩ => ⟨S1200000, .i1⟩
  | .hbm, ⟨17, _⟩ => ⟨S_, .i32⟩
  | .hbm, ⟨18, _⟩ => ⟨S1200000, .i32⟩
  | .hbm, ⟨19, _⟩ => ⟨S1200000, .i32⟩
  | .hbm, ⟨20, _⟩ => ⟨S1200000, .i32⟩
  | .hbm, ⟨21, _⟩ => ⟨S1200000x1, .i32⟩
  | .hbm, ⟨22, _⟩ => ⟨S1200000x64, .f32⟩
  | .hbm, ⟨23, _⟩ => ⟨S_, .f32⟩
  | .hbm, ⟨24, _⟩ => ⟨S100000x64, .f32⟩
  | .hbm, ⟨25, _⟩ => ⟨S1200000x1, .i32⟩
  | .hbm, ⟨26, _⟩ => ⟨S100000x64, .f32⟩
  | .hbm, ⟨27, _⟩ => ⟨S_, .f32⟩
  | .hbm, ⟨28, _⟩ => ⟨S1200000, .f32⟩
  | .hbm, ⟨29, _⟩ => ⟨S_, .f32⟩
  | .hbm, ⟨30, _⟩ => ⟨S100000, .f32⟩
  | .hbm, ⟨31, _⟩ => ⟨S1200000x1, .i32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S64x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S64x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1200000, .i32⟩
  | .hbm, ⟨53, _⟩ => ⟨S1200000, .i1⟩
  | .hbm, ⟨54, _⟩ => ⟨S_, .i32⟩
  | .hbm, ⟨55, _⟩ => ⟨S1200000, .i32⟩
  | .hbm, ⟨56, _⟩ => ⟨S1200000, .i32⟩
  | .hbm, ⟨57, _⟩ => ⟨S1200000, .i32⟩
  | .hbm, ⟨58, _⟩ => ⟨S1200000x1, .i32⟩
  | .hbm, ⟨59, _⟩ => ⟨S1200000x64, .f32⟩
  | .hbm, ⟨60, _⟩ => ⟨S_, .f32⟩
  | .hbm, ⟨61, _⟩ => ⟨S100000x64, .f32⟩
  | .hbm, ⟨62, _⟩ => ⟨S1200000x1, .i32⟩
  | .hbm, ⟨63, _⟩ => ⟨S100000x64, .f32⟩
  | .hbm, ⟨64, _⟩ => ⟨S_, .f32⟩
  | .hbm, ⟨65, _⟩ => ⟨S1200000, .f32⟩
  | .hbm, ⟨66, _⟩ => ⟨S_, .f32⟩
  | .hbm, ⟨67, _⟩ => ⟨S100000, .f32⟩
  | .hbm, ⟨68, _⟩ => ⟨S1200000x1, .i32⟩
  | .hbm, ⟨69, _⟩ => ⟨S100000, .f32⟩
  | .hbm, ⟨70, _⟩ => ⟨S_, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S64x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S64x64, .f32⟩
  | .hbm, ⟨83, _⟩ => ⟨S100000x64, .f32⟩
  | .hbm, ⟨84, _⟩ => ⟨S100000x64, .f32⟩
  | .hbm, ⟨85, _⟩ => ⟨S64x2, .f32⟩
  | .hbm, ⟨86, _⟩ => ⟨S100000x2, .f32⟩
  | .hbm, ⟨87, _⟩ => ⟨S1x2, .f32⟩
  | .hbm, ⟨88, _⟩ => ⟨S100000x2, .f32⟩
  | .hbm, ⟨89, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_cst : Ref sig .tc := ⟨.hbm, 48, rfl⟩
abbrev main_call1_v0 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_call2_v0 : Ref sig .tc := ⟨.hbm, 71, rfl⟩
abbrev main_call2_v1 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.Entry0.lean ====
/-
  What the first kernel finds in its operand arrays.

  Before the first kernel runs, the host has built the edge count clipped at one (as a column), the
  neighbourhood sums of the input features, and the bias as a row; the features and the two weight
  matrices are the arguments themselves.  The neighbourhood sum and the edge count are the same
  scatter-additions the reference makes, of the same operands: operation by operation the two terms agree.
-/
import proofs.«178372_j12575664242835_2_alg».proof.Proof.Gen.KernelIdeal.Frame
import proofs.«178372_j12575664242835_2_alg».proof.Proof.Gen.ReferenceIdeal.Read
import Idealize.ShloMosaic.Lib.StableHlo.Run

noncomputable section

namespace Cert.Sage.Entry

open Cert.KernelIdeal Cert.KernelIdeal.Gen Idealize.ShloMosaic Idealize.ShloMosaic.TcCoe Idealize.SL.Sem
open Idealize.ShloMosaic.StableHlo (after_cons after_nil)

variable (m : (ℓ : Loc nD τ sig) → Buf (Elt Ideal) ℓ) (ρ : Dev nD → PrngReg)

set_option maxHeartbeats 4000000 in
/-- The first operand: the neighbourhood sums of the input features. -/
theorem V3_agg (c : Dev nD) :
    V3 m ρ c main_v19
      = Cert.ReferenceIdeal.Read.val_main_v13 (F := Ideal) (m ((c : Thread nD τ).loc main_arg0)) (m ((c : Thread nD τ).loc main_arg1)) := by
  dsimp only [V3, W3, W2, W1]
  after_results
  unfold Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0 Cert.ReferenceIdeal.Read.val_main_cst
  refine congrArg₂ (Host.scatterAdd _ _) ?_ ?_
  · rfl
  · refine congrArg₂ (Host.gather _) ?_ ?_
    · rfl
    · rfl

/-- The features. -/
theorem V3_x (c : Dev nD) : V3 m ρ c main_arg0 = m ((c : Thread nD τ).loc main_arg0) := by
  dsimp only [V3, W3, W2, W1]
  after_results

set_option maxHeartbeats 4000000 in
/-- The clipped edge count, before it is made a column. -/
theorem W2_clip (c : Dev nD) :
    W2 m ρ c (Proc.devRef .tc main_v8)
      = Cert.ReferenceIdeal.Read.val_main_v18 (F := Ideal) (m ((c : Thread nD τ).loc main_arg1)) := by
  dsimp only [W2, W1]
  after_results
  unfold Cert.ReferenceIdeal.Read.val_main_v18 Cert.ReferenceIdeal.Read.val_main_call0_v1 Cert.ReferenceIdeal.Read.val_main_call0_v0 Cert.ReferenceIdeal.Read.val_main_cst_3 Cert.ReferenceIdeal.Read.val_main_v17 Cert.ReferenceIdeal.Read.val_main_v16 Cert.ReferenceIdeal.Read.val_main_v15 Cert.ReferenceIdeal.Read.val_main_v14 Cert.ReferenceIdeal.Read.val_main_cst_1 Cert.ReferenceIdeal.Read.val_main_cst_2 Cert.ReferenceIdeal.Read.val_main_v3 Cert.ReferenceIdeal.Read.val_main_v2
  exact congrArg₂ maximumf rfl (congrArg₂ (Host.scatterAdd _ _) rfl rfl)

/-- The clipped edge count, as a column. -/
theorem V3_deg (c : Dev nD) :
    V3 m ρ c main_v9
      = shapeCast S100000x1 (Cert.ReferenceIdeal.Read.val_main_v18 (F := Ideal) (m ((c : Thread nD τ).loc main_arg1))) shapeCasts_S100000_S100000x1 := by
  rw [← W2_clip]
  dsimp only [V3, W3]
  generalize W2 m ρ c = Wc
  after_results
  rfl

/-- The neighbour weights. -/
theorem V3_wl (c : Dev nD) : V3 m ρ c main_arg2 = m ((c : Thread nD τ).loc main_arg2) := by
  dsimp only [V3, W3, W2, W1]
  after_results

/-- The bias, as a row. -/
theorem V3_b (c : Dev nD) :
    V3 m ρ c main_v20 = shapeCast S1x64 (m ((c : Thread nD τ).loc main_arg3)) shapeCasts_S64_S1x64 := by
  dsimp only [V3, W3, W2, W1]
  after_results
  rfl

/-- The root weights. -/
theorem V3_wr (c : Dev nD) : V3 m ρ c main_arg4 = m ((c : Thread nD τ).loc main_arg4) := by
  dsimp only [V3, W3, W2, W1]
  after_results

/-- The edge sources and the edge targets, as the host has them from its first operations on. -/
theorem W3_src (c : Dev nD) :
    W3 m ρ c (Proc.devRef .tc main_v1) = Cert.ReferenceIdeal.Read.val_main_v1 (F := Ideal) (m ((c : Thread nD τ).loc main_arg1)) := by
  dsimp only [W3, W2, W1]
  after_results
  rfl

theorem W3_dst (c : Dev nD) :
    W3 m ρ c (Proc.devRef .tc main_v3) = Cert.ReferenceIdeal.Read.val_main_v3 (F := Ideal) (m ((c : Thread nD τ).loc main_arg1)) := by
  dsimp only [W3, W2, W1]
  after_results
  rfl

end Cert.Sage.Entry

end
-- ==== Proof.Body0.lean ====
/-
  The first layer's kernel body, read at one entry of its output block.

  For row `p` of the block and output feature `q` the body computes
  `max ((∑ₖ (agg[p,k] · (1 / deg[p])) · Wl[q,k] + b[q]) + ∑ₖ x[p,k] · Wr[q,k]) 0`:
  the two matrix products are against the TRANSPOSED weights, so the sum runs over the weights' second
  axis; the roundings to bf16 on the way into the products are the identity on the extended reals.
-/
import proofs.«178372_j12575664242835_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Sage.Body

open Cert.KernelIdeal Cert.KernelIdeal.Gen Idealize.ShloMosaic Idealize.ShloMosaic.ValueIdx

theorem lhs64_0 (i : S10000x64.Idx) (c : dot_S10000x64_S64x64_S10000x64_1_0_0_1_n_n.contr.Idx) : (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs64_1 (i : S10000x64.Idx) (c : dot_S10000x64_S64x64_S10000x64_1_0_0_1_n_n.contr.Idx) : (dot_S10000x64_S64x64_S10000x64_1_0_0_1_n_n.lhsIdx i c 1).val = (c ⟨0, by decide⟩).val :=
  dot_S10000x64_S64x64_S10000x64_1_0_0_1_n_n.lhsIdx_val_of_single rfl i c
theorem rhs64_0 (i : S10000x64.Idx) (c : dot_S10000x64_S64x64_S10000x64_1_0_0_1_n_n.contr.Idx) : (dot_S10000x64_S64x64_S10000x64_1_0_0_1_n_n.rhsIdx i c 0).val = (c ⟨0, by decide⟩).val :=
  dot_S10000x64_S64x64_S10000x64_1_0_0_1_n_n.rhsIdx_val_of_single rfl i c
theorem rhs64_1 (i : S10000x64.Idx) (c : dot_S10000x64_S64x64_S10000x64_1_0_0_1_n_n.contr.Idx) : (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The 64-wide product of a block of rows with a transposed 64×64 weight matrix, at entry `(p, q)`:
    the sum over `k` of the row's entry `k` times the weight's entry `(q, k)`. -/
theorem matmulT64_apply {φ₁ φ₂ : FTy} (l : FVec Ideal S10000x64 φ₁) (w : FVec Ideal S64x64 φ₂) (p : Fin 10000) (q : Fin 64) :
    matmul dot_S10000x64_S64x64_S10000x64_1_0_0_1_n_n none l (transpose S64x64 [1, 0] w transposes_S64x64_p1_0_S64x64)
      (constant S10000x64 .f32 0x00000000#32) (ix2 p q) = ∑ k : Fin 64, l (ix2 p k) * w (ix2 q k) := by
  refine (Ideal.matmul_constant_zero_apply dot_S10000x64_S64x64_S10000x64_1_0_0_1_n_n none l _ (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhs64_0 _ _
      | ⟨1, _⟩ => exact (lhs64_1 _ _).trans hk)
  have er : transpose S64x64 [1, 0] w transposes_S64x64_p1_0_S64x64 (dot_S10000x64_S64x64_S10000x64_1_0_0_1_n_n.rhsIdx (ix2 p q) ((contrEquiv1 dot_S10000x64_S64x64_S10000x64_1_0_0_1_n_n 64 rfl rfl).symm k)) = w (ix2 q k) := by
    refine transpose_apply [1, 0] w transposes_S64x64_p1_0_S64x64 _ (ix2 q k) fun b => ?_
    match b with
    | ⟨0, _⟩ => exact ((rhs64_0 _ _).trans hk).symm
    | ⟨1, _⟩ => exact (rhs64_1 (ix2 p q) _).symm
  rw [el, er]

/-- A column `[10000, 1]` broadcast along the features: entry `(p, q)` is the column's entry `p`. -/
theorem colBroadcast_apply {α : Type} (v : S10000x1.Idx → α) (p : Fin 10000) (q : Fin 64) :
    broadcastTo S10000x64 v broadcasts_S10000x1_S10000x64 (ix2 p q) = v (ix2 p 0) := by
  refine broadcastTo_apply v _ _ _ fun a => ?_
  match a with
  | ⟨0, _⟩ => rfl
  | ⟨1, _⟩ => rfl

/-- A row `[1, 64]` broadcast down the block: entry `(p, q)` is the row's entry `q`. -/
theorem rowBroadcast_apply {α : Type} (v : S1x64.Idx → α) (p : Fin 10000) (q : Fin 64) :
    broadcastTo S10000x64 v broadcasts_S1x64_S10000x64 (ix2 p q) = v (ix2 0 q) := by
  refine broadcastTo_apply v _ _ _ fun a => ?_
  match a with
  | ⟨0, _⟩ => rfl
  | ⟨1, _⟩ => rfl

/-- The first layer's stored value at entry `(p, q)` of the block. -/
theorem pay0_apply (deg : Vec Ideal S10000x1 .f32) (agg x : Vec Ideal S10000x64 .f32) (wl wr : Vec Ideal S64x64 .f32)
    (b : Vec Ideal S1x64 .f32) (p : Fin 10000) (q : Fin 64) :
    k0_pay1 deg agg x wl wr b (ix2 p q)
      = max (((∑ k : Fin 64, (agg (ix2 p k) * Ideal.div (Ideal.ofBits .f32 0x3F800000#32) (deg (ix2 p 0))) * wl (ix2 q k)) + b (ix2 0 q))
          + ∑ k : Fin 64, x (ix2 p k) * wr (ix2 q k)) (Ideal.ofBits .f32 0x00000000#32) := by
  unfold k0_pay1
  simp only [shapeCast_self]
  refine congrArg₂ max (congrArg₂ (· + ·) (congrArg₂ (· + ·) ?_ ?_) ?_) rfl
  · refine (matmulT64_apply _ _ p q).trans (Finset.sum_congr rfl fun k _ => ?_)
    show (agg (ix2 p k) * (broadcastTo S10000x64 (divf (broadcast S10000x1 (Scalar.ofBits (F := Ideal) .f32 0x3F800000#32)) deg) broadcasts_S10000x1_S10000x64) (ix2 p k)) * wl (ix2 q k) = _
    rw [colBroadcast_apply]
    rfl
  · exact rowBroadcast_apply _ p q
  · exact matmulT64_apply _ _ p q

end Cert.Sage.Body

end
-- ==== Proof.Ref0.lean ====
/-
  The reference's first layer, read at one entry.

  Row `r`, feature `q` of the reference's hidden state is
  `max ((∑ₖ (agg[r,k] / max 1 cnt[r]) · Wl[q,k] + b[q]) + ∑ₖ x[r,k] · Wr[q,k]) 0`, where `agg` is the
  scatter-added neighbourhood sum and `cnt` the scatter-added edge count (both left closed: which
  entries they add depends on the edge list).
-/
import proofs.«178372_j12575664242835_2_alg».proof.Proof.Gen.ReferenceIdeal.Read

noncomputable section

namespace Cert.Sage.Ref

open Cert.ReferenceIdeal Cert.ReferenceIdeal.Read Idealize.ShloMosaic Idealize.ShloMosaic.ValueIdx

/-- The divisor of row `r`: the edge count clipped from below at one, whatever the feature. -/
theorem deg1_apply (x1 : (⟨S2x1200000, .i32⟩ : BufTy).Contents (Elt Ideal)) (r : Fin 100000) (k : Fin 64) :
    val_main_v20 (F := Ideal) x1 (ix2 r k)
      = max (Ideal.ofBits .f32 0x3F800000#32) (val_main_v17 (F := Ideal) x1 (ix1 r)) := by
  rw [val_main_v20_apply, val_main_v19_apply, val_main_v18_apply, val_main_call0_v1_apply]
  have e : idx_main_v19 (idx_main_v20 (ix2 r k)) = ix1 r := funext fun a => Fin.ext (by match a with | ⟨0, _⟩ => rfl)
  rw [e]
  rfl

/-- The reference's hidden state after the first layer at `(r, q)`. -/
theorem h1_apply (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (r : Fin 100000) (q : Fin 64) :
    val_main_v30 (F := Ideal) x0 x1 x2 x3 x4 (ix2 r q)
      = max (((∑ k : Fin 64, Ideal.div (val_main_v13 (F := Ideal) x0 x1 (ix2 r k))
                (max (Ideal.ofBits .f32 0x3F800000#32) (val_main_v17 (F := Ideal) x1 (ix1 r))) * x2 (ix2 q k)) + x3 (ix1 q))
          + ∑ k : Fin 64, x0 (ix2 r k) * x4 (ix2 q k)) (Ideal.ofBits .f32 0x00000000#32) := by
  rw [val_main_v30_apply, val_main_v29_apply, val_main_v26_apply, val_main_v23_apply, val_main_v28_apply,
    val_main_v25_apply, val_main_v24_apply, val_main_call1_v0_apply, val_main_call1_cst_apply]
  refine congrArg₂ max (congrArg₂ (· + ·) (congrArg₂ (· + ·) (Finset.sum_congr rfl fun k _ => ?_) ?_)
    (Finset.sum_congr rfl fun k _ => ?_)) rfl
  · have e1 : lidx_main_v23 (ix2 r q) k = ix2 r k :=
      funext fun a => Fin.ext (by match a with | ⟨0, _⟩ => rfl | ⟨1, _⟩ => rfl)
    have e2 : idx_main_v22 (ridx_main_v23 (ix2 r q) k) = ix2 q k :=
      funext fun a => Fin.ext (by match a with | ⟨0, _⟩ => rfl | ⟨1, _⟩ => rfl)
    rw [val_main_v21_apply, val_main_v22_apply, e1, e2, deg1_apply]
    rfl
  · exact congrArg x3 (funext fun a => Fin.ext (by match a with | ⟨0, _⟩ => rfl))
  · have e1 : lidx_main_v28 (ix2 r q) k = ix2 r k :=
      funext fun a => Fin.ext (by match a with | ⟨0, _⟩ => rfl | ⟨1, _⟩ => rfl)
    have e2 : idx_main_v27 (ridx_main_v28 (ix2 r q) k) = ix2 q k :=
      funext fun a => Fin.ext (by match a with | ⟨0, _⟩ => rfl | ⟨1, _⟩ => rfl)
    rw [val_main_v27_apply, e1, e2]

end Cert.Sage.Ref

end
-- ==== Proof.Mean.lean ====
/-
  Dividing a neighbourhood sum by a clipped degree, two ways, on the extended reals.

  The kernel forms the reciprocal of the degree once per row and multiplies every feature of the row's
  neighbourhood sum by it; the reference divides every feature by the degree.  The degree is a count of
  incoming edges clipped from below at one, so it is never zero, and for a non-zero divisor the quotient
  of the extended reals IS the product with the inverse: `a · (1 · d⁻¹) = a · d⁻¹`.  Nothing here needs
  the operands to be finite.
-/
import Idealize.ShloMosaic.PureOps.Ideal
import Idealize.ShloMosaic.PureOps.Ideal.Laws
import Idealize.ShloMosaic.Lib.IdealHost

namespace Cert.Sage

open Idealize.ShloMosaic

/-- For a divisor that is not zero, multiplying by its reciprocal is dividing by it. -/
theorem mul_recip (a d : EReal) (hd : d ≠ 0) : a * Ideal.div 1 d = Ideal.div a d := by
  unfold Ideal.div
  rw [if_neg hd, if_neg hd, one_mul]

/-- A value clipped from below at one is not zero. -/
theorem clip_ne_zero (x : EReal) : max (1 : EReal) x ≠ 0 :=
  ne_of_gt (lt_of_lt_of_le zero_lt_one (le_max_left _ _))

/-- The mean of a row, as the kernel forms it and as the reference does: one value. -/
theorem mean_eq (a x : EReal) : a * Ideal.div 1 (max 1 x) = Ideal.div a (max 1 x) :=
  mul_recip a _ (clip_ne_zero x)

end Cert.Sage
-- ==== Proof.Layer1.lean ====
/-
  The first layer, block against array.

  Block `t` of the kernel's grid holds rows `10000·t … 10000·t + 9999`.  If the blocks the kernel body
  loads are those rows of the reference's operands — the neighbourhood sums, the features, the clipped edge
  count — and the weights and the bias are the reference's, then what the body stores at `(p, q)` is the
  reference's hidden state at `(10000·t + p, q)`: term by term the two sums agree, the only difference being
  `agg · (1 / d)` against `agg / d` with `d = max 1 cnt ≠ 0`.
-/
import proofs.«178372_j12575664242835_2_alg».proof.Proof.Body0
import proofs.«178372_j12575664242835_2_alg».proof.Proof.Ref0
import proofs.«178372_j12575664242835_2_alg».proof.Proof.Mean

noncomputable section

namespace Cert.Sage

open Idealize.ShloMosaic Idealize.ShloMosaic.ValueIdx
open Cert.ReferenceIdeal.Read

/-- Row `p` of block `t` (ten blocks of ten thousand rows) as a row of the whole array. -/
def row (t : ℕ) (ht : t < 10) (p : Fin 10000) : Fin 100000 := ⟨10000 * t + p.val, by have := p.isLt; omega⟩

theorem layer1_block (deg : Vec Ideal Cert.KernelIdeal.S10000x1 .f32) (agg x : Vec Ideal Cert.KernelIdeal.S10000x64 .f32)
    (wl wr : Vec Ideal Cert.KernelIdeal.S64x64 .f32) (b : Vec Ideal Cert.KernelIdeal.S1x64 .f32)
    (x0 : (⟨Cert.ReferenceIdeal.S100000x64, .f32⟩ : BufTy).Contents (Elt Ideal)) (x1 : (⟨Cert.ReferenceIdeal.S2x1200000, .i32⟩ : BufTy).Contents (Elt Ideal))
    (x2 : (⟨Cert.ReferenceIdeal.S64x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) (t : ℕ) (ht : t < 10)
    (hagg : ∀ (p : Fin 10000) (k : Fin 64), agg (ix2 p k) = val_main_v13 (F := Ideal) x0 x1 (ix2 (row t ht p) k))
    (hx : ∀ (p : Fin 10000) (k : Fin 64), x (ix2 p k) = x0 (ix2 (row t ht p) k))
    (hdeg : ∀ p : Fin 10000, deg (ix2 p 0) = max (Ideal.ofBits .f32 0x3F800000#32) (val_main_v17 (F := Ideal) x1 (ix1 (row t ht p))))
    (hwl : ∀ q k : Fin 64, wl (ix2 q k) = x2 (ix2 q k)) (hwr : ∀ q k : Fin 64, wr (ix2 q k) = x4 (ix2 q k))
    (hb : ∀ q : Fin 64, b (ix2 0 q) = x3 (ix1 q)) (p : Fin 10000) (q : Fin 64) :
    Cert.KernelIdeal.Gen.k0_pay1 deg agg x wl wr b (ix2 p q) = val_main_v30 (F := Ideal) x0 x1 x2 x3 x4 (ix2 (row t ht p) q) := by
  rw [Body.pay0_apply, Ref.h1_apply]
  refine congrArg₂ max (congrArg₂ (· + ·) (congrArg₂ (· + ·) (Finset.sum_congr rfl fun k _ => ?_) (hb q))
    (Finset.sum_congr rfl fun k _ => ?_)) rfl
  · rw [hagg, hdeg, hwl, Ideal.ofBits_one_f32, mean_eq]
  · rw [hx, hwr]

end Cert.Sage

end
-- ==== Proof.Region0.lean ====
/-
  The first kernel's output array.

  Grid point `t` of the first kernel loads rows `10000·t … 10000·t + 9999` of the neighbourhood sums, of the
  features and of the clipped edge count, and the whole weight matrices and bias; it writes the same rows of
  its output.  By the block-against-array lemma each block it writes back is that block of the reference's
  hidden state, the ten blocks tile the array, and so the array the first kernel leaves IS the reference's
  hidden state after the first layer.
-/
import proofs.«178372_j12575664242835_2_alg».proof.Proof.Entry0
import proofs.«178372_j12575664242835_2_alg».proof.Proof.Layer1
import Idealize.ShloMosaic.Lib.Pipeline.Value

noncomputable section

namespace Cert.Sage.Region0

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal.Read

theorem hz : (![0, 0] : Fin 2 → Nat) = fun _ => 0 := funext fun a => by fin_cases a <;> rfl

theorem t_lt (t : Fin cfg0.N) : t.val < 10 := lt_of_lt_of_eq t.isLt (show cfg0.N = 10 from N_0)

/-! ## The windows' geometry, at ANY contents of the arrays

The printed index maps, decided over the ten grid points: a row window's block index is the grid point, the
parameters' windows stay at block zero.  So a row window's block at point `t`, read at `(a, b)`, is its array at
`(10000·t + a, b)`, and a parameter's block is its array. -/

theorem ix_0 : ∀ t : Fin cfg0.N, win0_0.index t (0 : Fin 2) = t.val ∧ win0_0.index t (1 : Fin 2) = 0 :=
  (by decide +kernel : ∀ t : Fin grid0.N, _)
theorem ix_1 : ∀ t : Fin cfg0.N, win0_1.index t (0 : Fin 2) = t.val ∧ win0_1.index t (1 : Fin 2) = 0 :=
  (by decide +kernel : ∀ t : Fin grid0.N, _)
theorem ix_2 : ∀ t : Fin cfg0.N, win0_2.index t (0 : Fin 2) = t.val ∧ win0_2.index t (1 : Fin 2) = 0 :=
  (by decide +kernel : ∀ t : Fin grid0.N, _)
theorem ix_3 : ∀ t : Fin cfg0.N, win0_3.index t (0 : Fin 2) = 0 ∧ win0_3.index t (1 : Fin 2) = 0 :=
  (by decide +kernel : ∀ t : Fin grid0.N, _)
theorem ix_4 : ∀ t : Fin cfg0.N, win0_4.index t (0 : Fin 2) = 0 ∧ win0_4.index t (1 : Fin 2) = 0 :=
  (by decide +kernel : ∀ t : Fin grid0.N, _)
theorem ix_5 : ∀ t : Fin cfg0.N, win0_5.index t (0 : Fin 2) = 0 ∧ win0_5.index t (1 : Fin 2) = 0 :=
  (by decide +kernel : ∀ t : Fin grid0.N, _)
theorem ix_6 : ∀ t : Fin cfg0.N, win0_6.index t (0 : Fin 2) = t.val ∧ win0_6.index t (1 : Fin 2) = 0 :=
  (by decide +kernel : ∀ t : Fin grid0.N, _)

section Geometry

variable (V : (c : Dev nD) → (b : Ref sig .tc) → Buf (Elt Ideal) ((c : Thread nD τ).loc b))

theorem rd_0 (c : Dev nD) (t : Fin cfg0.N) (a : Fin 10000) (b : Fin 64) :
    (iblk0 V c 0 t : Vec Ideal S10000x64 .f32) (ix2 a b) = (V c main_v19 : S100000x64.Idx → Ideal .f32) (ix2 (row t.val (t_lt t) a) b) := by
  obtain ⟨e0, e1⟩ := ix_0 t
  unfold iblk0
  rw [View.read_apply]
  show V c main_v19 _ = _
  refine congrArg (V c main_v19 : S100000x64.Idx → Ideal .f32) (funext fun d => Fin.ext ?_)
  match d with
  | ⟨0, _⟩ => show win0_0.index t (0 : Fin 2) * 10000 + 1 * a.val = 10000 * t.val + a.val; rw [e0]; omega
  | ⟨1, _⟩ => show win0_0.index t (1 : Fin 2) * 64 + 1 * b.val = b.val; rw [e1]; omega

theorem rd_1 (c : Dev nD) (t : Fin cfg0.N) (a : Fin 10000) (b : Fin 64) :
    (iblk0 V c 1 t : Vec Ideal S10000x64 .f32) (ix2 a b) = (V c main_arg0 : S100000x64.Idx → Ideal .f32) (ix2 (row t.val (t_lt t) a) b) := by
  obtain ⟨e0, e1⟩ := ix_1 t
  unfold iblk0
  rw [View.read_apply]
  show V c main_arg0 _ = _
  refine congrArg (V c main_arg0 : S100000x64.Idx → Ideal .f32) (funext fun d => Fin.ext ?_)
  match d with
  | ⟨0, _⟩ => show win0_1.index t (0 : Fin 2) * 10000 + 1 * a.val = 10000 * t.val + a.val; rw [e0]; omega
  | ⟨1, _⟩ => show win0_1.index t (1 : Fin 2) * 64 + 1 * b.val = b.val; rw [e1]; omega

theorem rd_2 (c : Dev nD) (t : Fin cfg0.N) (a : Fin 10000) (b : Fin 1) :
    (iblk0 V c 2 t : Vec Ideal S10000x1 .f32) (ix2 a b) = (V c main_v9 : S100000x1.Idx → Ideal .f32) (ix2 (row t.val (t_lt t) a) b) := by
  obtain ⟨e0, e1⟩ := ix_2 t
  unfold iblk0
  rw [View.read_apply]
  show V c main_v9 _ = _
  refine congrArg (V c main_v9 : S100000x1.Idx → Ideal .f32) (funext fun d => Fin.ext ?_)
  match d with
  | ⟨0, _⟩ => show win0_2.index t (0 : Fin 2) * 10000 + 1 * a.val = 10000 * t.val + a.val; rw [e0]; omega
  | ⟨1, _⟩ => show win0_2.index t (1 : Fin 2) * 1 + 1 * b.val = b.val; rw [e1]; omega

theorem rd_3 (c : Dev nD) (t : Fin cfg0.N) (a : Fin 64) (b : Fin 64) :
    (iblk0 V c 3 t : Vec Ideal S64x64 .f32) (ix2 a b) = (V c main_arg2 : S64x64.Idx → Ideal .f32) (ix2 a b) := by
  obtain ⟨e0, e1⟩ := ix_3 t
  unfold iblk0
  rw [View.read_apply]
  show V c main_arg2 _ = _
  refine congrArg (V c main_arg2 : S64x64.Idx → Ideal .f32) (funext fun d => Fin.ext ?_)
  match d with
  | ⟨0, _⟩ => show win0_3.index t (0 : Fin 2) * 64 + 1 * a.val = a.val; rw [e0]; omega
  | ⟨1, _⟩ => show win0_3.index t (1 : Fin 2) * 64 + 1 * b.val = b.val; rw [e1]; omega

theorem rd_4 (c : Dev nD) (t : Fin cfg0.N) (a : Fin 1) (b : Fin 64) :
    (iblk0 V c 4 t : Vec Ideal S1x64 .f32) (ix2 a b) = (V c main_v20 : S1x64.Idx → Ideal .f32) (ix2 a b) := by
  obtain ⟨e0, e1⟩ := ix_4 t
  unfold iblk0
  rw [View.read_apply]
  show V c main_v20 _ = _
  refine congrArg (V c main_v20 : S1x64.Idx → Ideal .f32) (funext fun d => Fin.ext ?_)
  match d with
  | ⟨0, _⟩ => show win0_4.index t (0 : Fin 2) * 1 + 1 * a.val = a.val; rw [e0]; omega
  | ⟨1, _⟩ => show win0_4.index t (1 : Fin 2) * 64 + 1 * b.val = b.val; rw [e1]; omega

theorem rd_5 (c : Dev nD) (t : Fin cfg0.N) (a : Fin 64) (b : Fin 64) :
    (iblk0 V c 5 t : Vec Ideal S64x64 .f32) (ix2 a b) = (V c main_arg4 : S64x64.Idx → Ideal .f32) (ix2 a b) := by
  obtain ⟨e0, e1⟩ := ix_5 t
  unfold iblk0
  rw [View.read_apply]
  show V c main_arg4 _ = _
  refine congrArg (V c main_arg4 : S64x64.Idx → Ideal .f32) (funext fun d => Fin.ext ?_)
  match d with
  | ⟨0, _⟩ => show win0_5.index t (0 : Fin 2) * 64 + 1 * a.val = a.val; rw [e0]; omega
  | ⟨1, _⟩ => show win0_5.index t (1 : Fin 2) * 64 + 1 * b.val = b.val; rw [e1]; omega

/-- What grid point `t` writes back: the body's stored value of the point's input blocks (the output window is not cut). -/
theorem flushed_gen (c : Dev nD) (t : Fin cfg0.N) :
    (dat0 V c).flushed 6 t = k0_pay1 (iblk0 V c 2 t) (iblk0 V c 0 t) (iblk0 V c 1 t) (iblk0 V c 3 t) (iblk0 V c 5 t) (iblk0 V c 4 t) := by
  show (cfg0.win 6).cut (grid0.coords t) ((dat0 V c).after 6 t) = _
  rw [after0_6]
  unfold out0_6
  rw [View.canon_unit_zero hz]
  simp only [View.ld_unit_zero (S := S10000x64) hz, View.ld_unit_zero (S := S10000x1) hz, View.ld_unit_zero (S := S64x64) hz, View.ld_unit_zero (S := S1x64) hz]
  rfl

end Geometry

/-- A whole-array function read through the output window's block at point `t`. -/
theorem read_out (G : S100000x64.Idx → Ideal .f32) (t : Fin cfg0.N) (a : Fin 10000) (b : Fin 64) :
    (((cfg0.win 6).blk t).view.read (Elt Ideal) G : Vec Ideal S10000x64 .f32) (ix2 a b) = G (ix2 (row t.val (t_lt t) a) b) := by
  obtain ⟨e0, e1⟩ := ix_6 t
  rw [View.read_apply]
  show G _ = _
  refine congrArg G (funext fun d => Fin.ext ?_)
  match d with
  | ⟨0, _⟩ => show win0_6.index t (0 : Fin 2) * 10000 + 1 * a.val = 10000 * t.val + a.val; rw [e0]; omega
  | ⟨1, _⟩ => show win0_6.index t (1 : Fin 2) * 64 + 1 * b.val = b.val; rw [e1]; omega

/-- An index of the output array is in point `t`'s block iff each coordinate is in the block's range. -/
theorem mem_blk (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v21).slice (win0_6.rect t)).set ↔ _
  rw [View.set_slice_whole, Rect.mem_set_unit]
  exact Iff.rfl

/-- The ten blocks tile the array: row `r` is in block `r / 10000`. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨e0, e1⟩ := ix_6 t
  refine ⟨t, flush0_6 t, ?_⟩
  rw [mem_blk]
  intro a
  match a with
  | ⟨0, _⟩ => show win0_6.index t (0 : Fin 2) * 10000 ≤ (i 0).val ∧ (i 0).val < win0_6.index t (0 : Fin 2) * 10000 + 10000
              rw [e0]; show (i 0).val / 10000 * 10000 ≤ (i 0).val ∧ (i 0).val < (i 0).val / 10000 * 10000 + 10000; omega
  | ⟨1, _⟩ => show win0_6.index t (1 : Fin 2) * 64 ≤ (i 1).val ∧ (i 1).val < win0_6.index t (1 : Fin 2) * 64 + 64
              rw [e1]; omega

/-! ## The first kernel's output array, at the contents the host left -/

variable (m : (ℓ : Loc nD τ sig) → Buf (Elt Ideal) ℓ) (ρ : Dev nD → PrngReg)

/-- The reference's hidden state after the first layer, of the kernel program's own arguments. -/
abbrev H1 (c : Dev nD) : S100000x64.Idx → Ideal .f32 :=
  val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The degree column at `(r, 0)` is the clipped edge count of node `r`. -/
theorem deg_col (x1 : (⟨Cert.ReferenceIdeal.S2x1200000, .i32⟩ : BufTy).Contents (Elt Ideal)) (r : Fin 100000) :
    shapeCast S100000x1 (val_main_v18 (F := Ideal) x1) shapeCasts_S100000_S100000x1 (ix2 r 0)
      = max (Ideal.ofBits .f32 0x3F800000#32) (val_main_v17 (F := Ideal) x1 (ix1 r)) := by
  refine (shapeCast_apply _ _ _ (ix1 r) ?_).trans ?_
  · rw [Shape.rowMajor_val_one, Shape.rowMajor_val_two]
    show r.val = r.val * 1 + 0
    omega
  · rw [val_main_v18_apply, val_main_call0_v1_apply]
    rfl

/-- The bias row at `(0, q)` is the bias at `q`. -/
theorem bias_row (x3 : S64.Idx → Ideal .f32) (q : Fin 64) :
    shapeCast S1x64 x3 shapeCasts_S64_S1x64 (ix2 0 q) = x3 (ix1 q) := by
  refine shapeCast_apply _ _ _ (ix1 q) ?_
  rw [Shape.rowMajor_val_one, Shape.rowMajor_val_two]
  show q.val = 0 * 64 + q.val
  omega

/-- What grid point `t` writes back is block `t` of the reference's hidden state. -/
theorem flushed_eq (c : Dev nD) (t : Fin cfg0.N) :
    (dat0 (V3 m ρ) c).flushed 6 t = ((cfg0.win 6).blk t).view.read (Elt Ideal) (H1 m c) := by
  rw [flushed_gen]
  funext y
  obtain ⟨p, q, rfl⟩ : ∃ (p : Fin 10000) (q : Fin 64), y = ix2 p q := ⟨y 0, y 1, eq_ix2 y⟩
  refine (layer1_block (iblk0 (V3 m ρ) c 2 t) (iblk0 (V3 m ρ) c 0 t) (iblk0 (V3 m ρ) c 1 t) (iblk0 (V3 m ρ) c 3 t) (iblk0 (V3 m ρ) c 5 t) (iblk0 (V3 m ρ) c 4 t)
    (m ((c : Thread nD τ).loc main_arg0)) (m ((c : Thread nD τ).loc main_arg1)) (m ((c : Thread nD τ).loc main_arg2)) (m ((c : Thread nD τ).loc main_arg3)) (m ((c : Thread nD τ).loc main_arg4)) t.val (t_lt t)
    (fun p k => (rd_0 (V3 m ρ) c t p k).trans (congrFun (Entry.V3_agg m ρ c) _))
    (fun p k => (rd_1 (V3 m ρ) c t p k).trans (congrFun (Entry.V3_x m ρ c) _))
    (fun p => ((rd_2 (V3 m ρ) c t p 0).trans (congrFun (Entry.V3_deg m ρ c) _)).trans (deg_col _ _))
    (fun q k => (rd_3 (V3 m ρ) c t q k).trans (congrFun (Entry.V3_wl m ρ c) _))
    (fun q k => (rd_5 (V3 m ρ) c t q k).trans (congrFun (Entry.V3_wr m ρ c) _))
    (fun q => ((rd_4 (V3 m ρ) c t 0 q).trans (congrFun (Entry.V3_b m ρ c) _)).trans (bias_row _ q)) p q).trans ?_
  exact (read_out (H1 m c) t p q).symm

/-- The array the first kernel leaves is the reference's hidden state after the first layer. -/
theorem final (c : Dev nD) : (dat0 (V3 m ρ) c).arrAt 6 cfg0.N = H1 m c :=
  (dat0 (V3 m ρ) c).arrAt_eq_of_cover 6 (H1 m c) (fun t _ => flushed_eq m ρ c t) cover

end Cert.Sage.Region0

end
-- ==== Proof.Entry1.lean ====
/-
  What the second kernel finds in its operand arrays.

  Between the two kernels the host gathers the first kernel's output along the edge sources and scatter-adds it
  along the edge targets — the reference's second neighbourhood sum, of the same hidden state, since the first
  kernel's output array IS the reference's hidden state.  The hidden state itself and the clipped edge count
  are as the first kernel left and found them; the second layer's weights, bias and the classifier's are the
  arguments.
-/
import proofs.«178372_j12575664242835_2_alg».proof.Proof.Region0

noncomputable section

namespace Cert.Sage.Entry

open Cert.KernelIdeal Cert.KernelIdeal.Gen Idealize.ShloMosaic Idealize.ShloMosaic.TcCoe Idealize.SL.Sem
open Idealize.ShloMosaic.StableHlo (after_cons after_nil)
open Idealize.ShloMosaic.Pipeline (Dat)

variable (m : (ℓ : Loc nD τ sig) → Buf (Elt Ideal) ℓ) (ρ : Dev nD → PrngReg)

/-- After the first kernel its output array holds the reference's hidden state. -/
theorem W4_h1 (c : Dev nD) : W4 m ρ c (Proc.devRef .tc main_v21) = Region0.H1 m c :=
  (W4_arr m ρ c 6).trans (Region0.final m ρ c)

/-- The first kernel leaves its operands as it found them: the clipped edge count. -/
theorem W4_deg (c : Dev nD) :
    W4 m ρ c (Proc.devRef .tc main_v9)
      = shapeCast S100000x1 (Cert.ReferenceIdeal.Read.val_main_v18 (F := Ideal) (m ((c : Thread nD τ).loc main_arg1))) shapeCasts_S100000_S100000x1 :=
  ((W4_arr m ρ c 2).trans (((dat0 (V3 m ρ) c).arrAt_in 2 rfl _).trans (A_eq0 (V3 m ρ) c 2))).trans (V3_deg m ρ c)

/-- The edge sources and targets are not the first kernel's to touch. -/
theorem W4_src (c : Dev nD) :
    W4 m ρ c (Proc.devRef .tc main_v1) = Cert.ReferenceIdeal.Read.val_main_v1 (F := Ideal) (m ((c : Thread nD τ).loc main_arg1)) :=
  (W4_of_ne m ρ c main_v1 (by decide)).trans (W3_src m ρ c)

theorem W4_dst (c : Dev nD) :
    W4 m ρ c (Proc.devRef .tc main_v3) = Cert.ReferenceIdeal.Read.val_main_v3 (F := Ideal) (m ((c : Thread nD τ).loc main_arg1)) :=
  (W4_of_ne m ρ c main_v3 (by decide)).trans (W3_dst m ρ c)

/-- Nor are the second layer's parameters. -/
theorem W4_arg5 (c : Dev nD) : W4 m ρ c (Proc.devRef .tc main_arg5) = m ((c : Thread nD τ).loc main_arg5) := by
  refine (W4_of_ne m ρ c main_arg5 (by decide)).trans ?_
  dsimp only [W3, W2, W1]
  after_results
theorem W4_arg6 (c : Dev nD) : W4 m ρ c (Proc.devRef .tc main_arg6) = m ((c : Thread nD τ).loc main_arg6) := by
  refine (W4_of_ne m ρ c main_arg6 (by decide)).trans ?_
  dsimp only [W3, W2, W1]
  after_results
theorem W4_arg7 (c : Dev nD) : W4 m ρ c (Proc.devRef .tc main_arg7) = m ((c : Thread nD τ).loc main_arg7) := by
  refine (W4_of_ne m ρ c main_arg7 (by decide)).trans ?_
  dsimp only [W3, W2, W1]
  after_results
theorem W4_arg8 (c : Dev nD) : W4 m ρ c (Proc.devRef .tc main_arg8) = m ((c : Thread nD τ).loc main_arg8) := by
  refine (W4_of_ne m ρ c main_arg8 (by decide)).trans ?_
  dsimp only [W3, W2, W1]
  after_results
theorem W4_arg9 (c : Dev nD) : W4 m ρ c (Proc.devRef .tc main_arg9) = m ((c : Thread nD τ).loc main_arg9) := by
  refine (W4_of_ne m ρ c main_arg9 (by decide)).trans ?_
  dsimp only [W3, W2, W1]
  after_results

set_option maxHeartbeats 4000000 in
/-- The second kernel's first operand: the neighbourhood sums of the hidden state. -/
theorem V5_agg (c : Dev nD) :
    V5 m ρ c main_v31
      = Cert.ReferenceIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [V5, W5]
  after_results
  rw [W4_dst, W4_h1, W4_src]
  unfold Cert.ReferenceIdeal.Read.val_main_v40 Cert.ReferenceIdeal.Read.val_main_v39 Cert.ReferenceIdeal.Read.val_main_v38 Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_c_4 Cert.ReferenceIdeal.Read.val_main_c_5 Cert.ReferenceIdeal.Read.val_main_cst_6
  exact congrArg₂ (Host.scatterAdd _ _) rfl (congrArg₂ (Host.gather _) rfl rfl)

/-- The hidden state. -/
theorem V5_h (c : Dev nD) : V5 m ρ c main_v21 = Region0.H1 m c := by
  dsimp only [V5, W5]
  after_results
  exact W4_h1 m ρ c

/-- The clipped edge count, as a column. -/
theorem V5_deg (c : Dev nD) :
    V5 m ρ c main_v9
      = shapeCast S100000x1 (Cert.ReferenceIdeal.Read.val_main_v18 (F := Ideal) (m ((c : Thread nD τ).loc main_arg1))) shapeCasts_S100000_S100000x1 := by
  dsimp only [V5, W5]
  after_results
  exact W4_deg m ρ c

theorem V5_wl (c : Dev nD) : V5 m ρ c main_arg5 = m ((c : Thread nD τ).loc main_arg5) := by
  dsimp only [V5, W5]
  after_results
  exact W4_arg5 m ρ c

theorem V5_wr (c : Dev nD) : V5 m ρ c main_arg7 = m ((c : Thread nD τ).loc main_arg7) := by
  dsimp only [V5, W5]
  after_results
  exact W4_arg7 m ρ c

theorem V5_wc (c : Dev nD) : V5 m ρ c main_arg8 = m ((c : Thread nD τ).loc main_arg8) := by
  dsimp only [V5, W5]
  after_results
  exact W4_arg8 m ρ c

/-- The second layer's bias and the classifier's, as rows. -/
theorem V5_b (c : Dev nD) : V5 m ρ c main_v32 = shapeCast S1x64 (m ((c : Thread nD τ).loc main_arg6)) shapeCasts_S64_S1x64 := by
  rw [← W4_arg6 m ρ c]
  dsimp only [V5, W5]
  generalize W4 m ρ c = Wc
  after_results
  rfl

theorem V5_bc (c : Dev nD) : V5 m ρ c main_v33 = shapeCast S1x2 (m ((c : Thread nD τ).loc main_arg9)) shapeCasts_S2_S1x2 := by
  rw [← W4_arg9 m ρ c]
  dsimp only [V5, W5]
  generalize W4 m ρ c = Wc
  after_results
  rfl

end Cert.Sage.Entry

end
-- ==== Proof.Body1.lean ====
/-
  The second kernel's body, read at one entry of its output block.

  For row `p` of the block and class `j` the body computes
  `∑_q ((∑ₖ (agg[p,k] · (1 / deg[p])) · Wl[q,k] + b[q]) + ∑ₖ h[p,k] · Wr[q,k]) · Wc[j,q] + bc[j]`:
  the second layer's hidden state of the row, never stored, contracted with the transposed classifier
  weights.  The roundings to bf16 are the identity on the extended reals.
-/
import proofs.«178372_j12575664242835_2_alg».proof.Proof.Body0

noncomputable section

namespace Cert.Sage.Body

open Cert.KernelIdeal Cert.KernelIdeal.Gen Idealize.ShloMosaic Idealize.ShloMosaic.ValueIdx

theorem lhs2_0 (i : S10000x2.Idx) (c : dot_S10000x64_S64x2_S10000x2_1_0_0_1_n_n.contr.Idx) : (dot_S10000x64_S64x2_S10000x2_1_0_0_1_n_n.lhsIdx i c 0).val = (i 0).val := by
  unfold DotDims.lhsIdx
  rw [dif_neg (show ¬(0 : Fin S10000x64.rank) ∈ dot_S10000x64_S64x2_S10000x2_1_0_0_1_n_n.lhsBatch by decide), dif_pos (show (0 : Fin S10000x64.rank) ∈ dot_S10000x64_S64x2_S10000x2_1_0_0_1_n_n.lhsNonContracting by decide)]
  rfl
theorem lhs2_1 (i : S10000x2.Idx) (c : dot_S10000x64_S64x2_S10000x2_1_0_0_1_n_n.contr.Idx) : (dot_S10000x64_S64x2_S10000x2_1_0_0_1_n_n.lhsIdx i c 1).val = (c ⟨0, by decide⟩).val :=
  dot_S10000x64_S64x2_S10000x2_1_0_0_1_n_n.lhsIdx_val_of_single rfl i c
theorem rhs2_0 (i : S10000x2.Idx) (c : dot_S10000x64_S64x2_S10000x2_1_0_0_1_n_n.contr.Idx) : (dot_S10000x64_S64x2_S10000x2_1_0_0_1_n_n.rhsIdx i c 0).val = (c ⟨0, by decide⟩).val :=
  dot_S10000x64_S64x2_S10000x2_1_0_0_1_n_n.rhsIdx_val_of_single rfl i c
theorem rhs2_1 (i : S10000x2.Idx) (c : dot_S10000x64_S64x2_S10000x2_1_0_0_1_n_n.contr.Idx) : (dot_S10000x64_S64x2_S10000x2_1_0_0_1_n_n.rhsIdx i c 1).val = (i 1).val := by
  unfold DotDims.rhsIdx
  rw [dif_neg (show ¬(1 : Fin S64x2.rank) ∈ dot_S10000x64_S64x2_S10000x2_1_0_0_1_n_n.rhsBatch by decide), dif_pos (show (1 : Fin S64x2.rank) ∈ dot_S10000x64_S64x2_S10000x2_1_0_0_1_n_n.rhsNonContracting by decide)]
  rfl

/-- The product of a block of rows with the transposed 2×64 classifier weights, at entry `(p, j)`:
    the sum over `q` of the row's entry `q` times the weight's entry `(j, q)`. -/
theorem matmulT2_apply {φ₁ φ₂ : FTy} (l : FVec Ideal S10000x64 φ₁) (w : FVec Ideal S2x64 φ₂) (p : Fin 10000) (j : Fin 2) :
    matmul dot_S10000x64_S64x2_S10000x2_1_0_0_1_n_n none l (transpose S64x2 [1, 0] w transposes_S2x64_p1_0_S64x2)
      (constant S10000x2 .f32 0x00000000#32) (ix2 p j) = ∑ q : Fin 64, l (ix2 p q) * w (ix2 j q) := by
  refine (Ideal.matmul_constant_zero_apply dot_S10000x64_S64x2_S10000x2_1_0_0_1_n_n none l _ (ix2 p j)).trans ?_
  rw [← Equiv.sum_comp (contrEquiv1 dot_S10000x64_S64x2_S10000x2_1_0_0_1_n_n 64 rfl rfl).symm]
  refine Finset.sum_congr rfl fun q _ => ?_
  have hq := contrEquiv1_symm_val dot_S10000x64_S64x2_S10000x2_1_0_0_1_n_n 64 rfl rfl q
  have el : dot_S10000x64_S64x2_S10000x2_1_0_0_1_n_n.lhsIdx (ix2 p j) ((contrEquiv1 dot_S10000x64_S64x2_S10000x2_1_0_0_1_n_n 64 rfl rfl).symm q) = ix2 p q :=
    funext fun a => Fin.ext (by
      match a with
      | ⟨0, _⟩ => exact lhs2_0 _ _
      | ⟨1, _⟩ => exact (lhs2_1 _ _).trans hq)
  have er : transpose S64x2 [1, 0] w transposes_S2x64_p1_0_S64x2 (dot_S10000x64_S64x2_S10000x2_1_0_0_1_n_n.rhsIdx (ix2 p j) ((contrEquiv1 dot_S10000x64_S64x2_S10000x2_1_0_0_1_n_n 64 rfl rfl).symm q)) = w (ix2 j q) := by
    refine transpose_apply [1, 0] w transposes_S2x64_p1_0_S64x2 _ (ix2 j q) fun b => ?_
    match b with
    | ⟨0, _⟩ => exact ((rhs2_0 _ _).trans hq).symm
    | ⟨1, _⟩ => exact (rhs2_1 (ix2 p j) _).symm
  rw [el, er]

/-- A row `[1, 2]` broadcast down the block: entry `(p, j)` is the row's entry `j`. -/
theorem rowBroadcast2_apply {α : Type} (v : S1x2.Idx → α) (p : Fin 10000) (j : Fin 2) :
    broadcastTo S10000x2 v broadcasts_S1x2_S10000x2 (ix2 p j) = v (ix2 0 j) := by
  refine broadcastTo_apply v _ _ _ fun a => ?_
  match a with
  | ⟨0, _⟩ => rfl
  | ⟨1, _⟩ => rfl

/-- The second kernel's stored value at entry `(p, j)` of the block. -/
theorem pay1_apply (deg : Vec Ideal S10000x1 .f32) (agg h : Vec Ideal S10000x64 .f32) (wl wr : Vec Ideal S64x64 .f32)
    (b : Vec Ideal S1x64 .f32) (wc : Vec Ideal S2x64 .f32) (bc : Vec Ideal S1x2 .f32) (p : Fin 10000) (j : Fin 2) :
    k1_pay1 deg agg h wl wr b wc bc (ix2 p j)
      = (∑ q : Fin 64, (((∑ k : Fin 64, (agg (ix2 p k) * Ideal.div (Ideal.ofBits .f32 0x3F800000#32) (deg (ix2 p 0))) * wl (ix2 q k)) + b (ix2 0 q))
            + ∑ k : Fin 64, h (ix2 p k) * wr (ix2 q k)) * wc (ix2 j q)) + bc (ix2 0 j) := by
  unfold k1_pay1
  simp only [shapeCast_self]
  refine congrArg₂ (fun a b : EReal => a + b) ?_ (rowBroadcast2_apply _ p j)
  refine (matmulT2_apply _ _ p j).trans (Finset.sum_congr rfl fun q _ => ?_)
  refine congrArg₂ (fun a b : EReal => a * b) ?_ rfl
  refine congrArg₂ (fun a b : EReal => a + b) (congrArg₂ (fun a b : EReal => a + b) ?_ ?_) ?_
  · refine (matmulT64_apply _ _ p q).trans (Finset.sum_congr rfl fun k _ => ?_)
    show (agg (ix2 p k) * (broadcastTo S10000x64 (divf (broadcast S10000x1 (Scalar.ofBits (F := Ideal) .f32 0x3F800000#32)) deg) broadcasts_S10000x1_S10000x64) (ix2 p k)) * wl (ix2 q k) = _
    rw [colBroadcast_apply]
    rfl
  · exact rowBroadcast_apply _ p q
  · exact matmulT64_apply _ _ p q

end Cert.Sage.Body

end
-- ==== Proof.Ref1.lean ====
/-
  The reference's second layer and classifier, read at one entry.

  Row `r`, class `j` of the reference's result is
  `∑_q ((∑ₖ (agg₂[r,k] / max 1 cnt[r]) · Wl₂[q,k] + b₂[q]) + ∑ₖ h[r,k] · Wr₂[q,k]) · Wc[j,q] + bc[j]`, where `h` is
  the hidden state after the first layer, `agg₂` its scatter-added neighbourhood sum and `cnt` the scatter-added
  edge count (both left closed).
-/
import proofs.«178372_j12575664242835_2_alg».proof.Proof.Gen.ReferenceIdeal.Read

noncomputable section

namespace Cert.Sage.Ref

open Cert.ReferenceIdeal Cert.ReferenceIdeal.Read Idealize.ShloMosaic Idealize.ShloMosaic.ValueIdx

/-- The second layer's divisor of row `r`: the edge count clipped from below at one. -/
theorem deg2_apply (x1 : (⟨S2x1200000, .i32⟩ : BufTy).Contents (Elt Ideal)) (r : Fin 100000) (k : Fin 64) :
    val_main_v47 (F := Ideal) x1 (ix2 r k)
      = max (Ideal.ofBits .f32 0x3F800000#32) (val_main_v44 (F := Ideal) x1 (ix1 r)) := by
  rw [val_main_v47_apply, val_main_v46_apply, val_main_v45_apply, val_main_call2_v1_apply]
  have e : idx_main_v46 (idx_main_v47 (ix2 r k)) = ix1 r := funext fun a => Fin.ext (by match a with | ⟨0, _⟩ => rfl)
  rw [e]
  rfl

/-- The second layer's hidden state (before the classifier) at `(r, q)`. -/
theorem h2_apply (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 : (⟨S64x64, .f32⟩ : BufTy).Contents (Elt Ideal))  (r : Fin 100000) (q : Fin 64) :
    val_main_v56 (F := Ideal) x0 x1 x2 x3 x4 x5 x6 x7 (ix2 r q)
      = ((∑ k : Fin 64, Ideal.div (val_main_v40 (F := Ideal) x0 x1 x2 x3 x4 (ix2 r k))
              (max (Ideal.ofBits .f32 0x3F800000#32) (val_main_v44 (F := Ideal) x1 (ix1 r))) * x5 (ix2 q k)) + x6 (ix1 q))
          + ∑ k : Fin 64, val_main_v30 (F := Ideal) x0 x1 x2 x3 x4 (ix2 r k) * x7 (ix2 q k) := by
  rw [val_main_v56_apply, val_main_v53_apply, val_main_v50_apply, val_main_v55_apply, val_main_v52_apply, val_main_v51_apply]
  refine congrArg₂ (· + ·) (congrArg₂ (· + ·) (Finset.sum_congr rfl fun k _ => ?_) ?_) (Finset.sum_congr rfl fun k _ => ?_)
  · have e1 : lidx_main_v50 (ix2 r q) k = ix2 r k :=
      funext fun a => Fin.ext (by match a with | ⟨0, _⟩ => rfl | ⟨1, _⟩ => rfl)
    have e2 : idx_main_v49 (ridx_main_v50 (ix2 r q) k) = ix2 q k :=
      funext fun a => Fin.ext (by match a with | ⟨0, _⟩ => rfl | ⟨1, _⟩ => rfl)
    rw [val_main_v48_apply, val_main_v49_apply, e1, e2, deg2_apply]
    rfl
  · exact congrArg x6 (funext fun a => Fin.ext (by match a with | ⟨0, _⟩ => rfl))
  · have e1 : lidx_main_v55 (ix2 r q) k = ix2 r k :=
      funext fun a => Fin.ext (by match a with | ⟨0, _⟩ => rfl | ⟨1, _⟩ => rfl)
    have e2 : idx_main_v54 (ridx_main_v55 (ix2 r q) k) = ix2 q k :=
      funext fun a => Fin.ext (by match a with | ⟨0, _⟩ => rfl | ⟨1, _⟩ => rfl)
    rw [val_main_v54_apply, e1, e2]

/-- The reference's result at `(r, j)`. -/
theorem out_apply (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S2x64, .f32⟩ : BufTy).Contents (Elt Ideal))
    (x9 : (⟨S2, .f32⟩ : BufTy).Contents (Elt Ideal)) (r : Fin 100000) (j : Fin 2) :
    val_main_v61 (F := Ideal) x0 x1 x2 x3 x4 x5 x6 x7 x8 x9 (ix2 r j)
      = (∑ q : Fin 64, val_main_v56 (F := Ideal) x0 x1 x2 x3 x4 x5 x6 x7 (ix2 r q) * x8 (ix2 j q)) + x9 (ix1 j) := by
  rw [val_main_v61_apply, val_main_v58_apply, val_main_v60_apply, val_main_v59_apply]
  refine congrArg₂ (· + ·) (Finset.sum_congr rfl fun q _ => ?_) ?_
  · have e1 : lidx_main_v58 (ix2 r j) q = ix2 r q :=
      funext fun a => Fin.ext (by match a with | ⟨0, _⟩ => rfl | ⟨1, _⟩ => rfl)
    have e2 : idx_main_v57 (ridx_main_v58 (ix2 r j) q) = ix2 j q :=
      funext fun a => Fin.ext (by match a with | ⟨0, _⟩ => rfl | ⟨1, _⟩ => rfl)
    rw [val_main_v57_apply, e1, e2]
  · exact congrArg x9 (funext fun a => Fin.ext (by match a with | ⟨0, _⟩ => rfl))

end Cert.Sage.Ref

end
-- ==== Proof.Layer2.lean ====
/-
  The second layer and the classifier, block against array.

  If the blocks the second kernel's body loads at grid point `t` are rows `10000·t …` of the reference's operands —
  the neighbourhood sums of the hidden state, the hidden state itself, the clipped edge count — and the weights and
  biases are the reference's, then what the body stores at `(p, j)` is the reference's result at `(10000·t + p, j)`.
  Again the sums agree term by term, `agg · (1 / d)` against `agg / d` with `d = max 1 cnt ≠ 0` being the one law used.
-/
import proofs.«178372_j12575664242835_2_alg».proof.Proof.Body1
import proofs.«178372_j12575664242835_2_alg».proof.Proof.Ref1
import proofs.«178372_j12575664242835_2_alg».proof.Proof.Layer1

noncomputable section

namespace Cert.Sage

open Idealize.ShloMosaic Idealize.ShloMosaic.ValueIdx
open Cert.ReferenceIdeal.Read

theorem layer2_block (deg : Vec Ideal Cert.KernelIdeal.S10000x1 .f32) (agg h : Vec Ideal Cert.KernelIdeal.S10000x64 .f32)
    (wl wr : Vec Ideal Cert.KernelIdeal.S64x64 .f32) (b : Vec Ideal Cert.KernelIdeal.S1x64 .f32)
    (wc : Vec Ideal Cert.KernelIdeal.S2x64 .f32) (bc : Vec Ideal Cert.KernelIdeal.S1x2 .f32)
    (x0 : (⟨Cert.ReferenceIdeal.S100000x64, .f32⟩ : BufTy).Contents (Elt Ideal)) (x1 : (⟨Cert.ReferenceIdeal.S2x1200000, .i32⟩ : BufTy).Contents (Elt Ideal))
    (x2 : (⟨Cert.ReferenceIdeal.S64x64, .f32⟩ : BufTy).Contents (Elt Ideal)) (x3 : (⟨Cert.ReferenceIdeal.S64, .f32⟩ : BufTy).Contents (Elt Ideal))
    (x4 x5 : (⟨Cert.ReferenceIdeal.S64x64, .f32⟩ : BufTy).Contents (Elt Ideal)) (x6 : (⟨Cert.ReferenceIdeal.S64, .f32⟩ : BufTy).Contents (Elt Ideal))
    (x7 : (⟨Cert.ReferenceIdeal.S64x64, .f32⟩ : BufTy).Contents (Elt Ideal)) (x8 : (⟨Cert.ReferenceIdeal.S2x64, .f32⟩ : BufTy).Contents (Elt Ideal))
    (x9 : (⟨Cert.ReferenceIdeal.S2, .f32⟩ : BufTy).Contents (Elt Ideal)) (t : ℕ) (ht : t < 10)
    (hagg : ∀ (p : Fin 10000) (k : Fin 64), agg (ix2 p k) = val_main_v40 (F := Ideal) x0 x1 x2 x3 x4 (ix2 (row t ht p) k))
    (hh : ∀ (p : Fin 10000) (k : Fin 64), h (ix2 p k) = val_main_v30 (F := Ideal) x0 x1 x2 x3 x4 (ix2 (row t ht p) k))
    (hdeg : ∀ p : Fin 10000, deg (ix2 p 0) = max (Ideal.ofBits .f32 0x3F800000#32) (val_main_v44 (F := Ideal) x1 (ix1 (row t ht p))))
    (hwl : ∀ q k : Fin 64, wl (ix2 q k) = x5 (ix2 q k)) (hwr : ∀ q k : Fin 64, wr (ix2 q k) = x7 (ix2 q k))
    (hb : ∀ q : Fin 64, b (ix2 0 q) = x6 (ix1 q))
    (hwc : ∀ (j : Fin 2) (q : Fin 64), wc (ix2 j q) = x8 (ix2 j q)) (hbc : ∀ j : Fin 2, bc (ix2 0 j) = x9 (ix1 j))
    (p : Fin 10000) (j : Fin 2) :
    Cert.KernelIdeal.Gen.k1_pay1 deg agg h wl wr b wc bc (ix2 p j)
      = val_main_v61 (F := Ideal) x0 x1 x2 x3 x4 x5 x6 x7 x8 x9 (ix2 (row t ht p) j) := by
  rw [Body.pay1_apply, Ref.out_apply]
  refine congrArg₂ (fun a b : EReal => a + b) (Finset.sum_congr rfl fun q _ => ?_) (hbc j)
  rw [Ref.h2_apply, hwc]
  refine congrArg (fun a : EReal => a * x8 (ix2 j q)) ?_
  refine congrArg₂ (fun a b : EReal => a + b) (congrArg₂ (fun a b : EReal => a + b) (Finset.sum_congr rfl fun k _ => ?_) (hb q))
    (Finset.sum_congr rfl fun k _ => ?_)
  · rw [hagg, hdeg, hwl, Ideal.ofBits_one_f32, mean_eq]
  · rw [hh, hwr]

end Cert.Sage

end
-- ==== Proof.Region1.lean ====
/-
  The second kernel's output array.

  Grid point `t` of the second kernel loads rows `10000·t …` of the hidden state's neighbourhood sums, of the hidden
  state and of the clipped edge count, and the whole parameters; it writes the same rows of the result.  Each block it
  writes back is that block of the reference's result, the ten blocks tile the array, and so the array the second
  kernel leaves IS the reference's result.
-/
import proofs.«178372_j12575664242835_2_alg».proof.Proof.Entry1
import proofs.«178372_j12575664242835_2_alg».proof.Proof.Layer2
import Idealize.ShloMosaic.Lib.Pipeline.Value

noncomputable section

namespace Cert.Sage.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal.Read

theorem hz : (![0, 0] : Fin 2 → Nat) = fun _ => 0 := funext fun a => by fin_cases a <;> rfl

theorem t_lt (t : Fin cfg1.N) : t.val < 10 := lt_of_lt_of_eq t.isLt (show cfg1.N = 10 from N_1)

/-! ## The windows' geometry, at ANY contents of the arrays

The printed index maps, decided over the ten grid points: a row window's block index is the grid point, the
parameters' windows stay at block zero.  So a row window's block at point `t`, read at `(a, b)`, is its array at
`(10000·t + a, b)`, and a parameter's block is its array. -/

theorem ix_0 : ∀ t : Fin cfg1.N, win1_0.index t (0 : Fin 2) = t.val ∧ win1_0.index t (1 : Fin 2) = 0 :=
  (by decide +kernel : ∀ t : Fin grid1.N, _)
theorem ix_1 : ∀ t : Fin cfg1.N, win1_1.index t (0 : Fin 2) = t.val ∧ win1_1.index t (1 : Fin 2) = 0 :=
  (by decide +kernel : ∀ t : Fin grid1.N, _)
theorem ix_2 : ∀ t : Fin cfg1.N, win1_2.index t (0 : Fin 2) = t.val ∧ win1_2.index t (1 : Fin 2) = 0 :=
  (by decide +kernel : ∀ t : Fin grid1.N, _)
theorem ix_3 : ∀ t : Fin cfg1.N, win1_3.index t (0 : Fin 2) = 0 ∧ win1_3.index t (1 : Fin 2) = 0 :=
  (by decide +kernel : ∀ t : Fin grid1.N, _)
theorem ix_4 : ∀ t : Fin cfg1.N, win1_4.index t (0 : Fin 2) = 0 ∧ win1_4.index t (1 : Fin 2) = 0 :=
  (by decide +kernel : ∀ t : Fin grid1.N, _)
theorem ix_5 : ∀ t : Fin cfg1.N, win1_5.index t (0 : Fin 2) = 0 ∧ win1_5.index t (1 : Fin 2) = 0 :=
  (by decide +kernel : ∀ t : Fin grid1.N, _)
theorem ix_6 : ∀ t : Fin cfg1.N, win1_6.index t (0 : Fin 2) = 0 ∧ win1_6.index t (1 : Fin 2) = 0 :=
  (by decide +kernel : ∀ t : Fin grid1.N, _)
theorem ix_7 : ∀ t : Fin cfg1.N, win1_7.index t (0 : Fin 2) = 0 ∧ win1_7.index t (1 : Fin 2) = 0 :=
  (by decide +kernel : ∀ t : Fin grid1.N, _)
theorem ix_8 : ∀ t : Fin cfg1.N, win1_8.index t (0 : Fin 2) = t.val ∧ win1_8.index t (1 : Fin 2) = 0 :=
  (by decide +kernel : ∀ t : Fin grid1.N, _)

section Geometry

variable (V : (c : Dev nD) → (b : Ref sig .tc) → Buf (Elt Ideal) ((c : Thread nD τ).loc b))

theorem rd_0 (c : Dev nD) (t : Fin cfg1.N) (a : Fin 10000) (b : Fin 64) :
    (iblk1 V c 0 t : Vec Ideal S10000x64 .f32) (ix2 a b) = (V c main_v31 : S100000x64.Idx → Ideal .f32) (ix2 (row t.val (t_lt t) a) b) := by
  obtain ⟨e0, e1⟩ := ix_0 t
  unfold iblk1
  rw [View.read_apply]
  show V c main_v31 _ = _
  refine congrArg (V c main_v31 : S100000x64.Idx → Ideal .f32) (funext fun d => Fin.ext ?_)
  match d with
  | ⟨0, _⟩ => show win1_0.index t (0 : Fin 2) * 10000 + 1 * a.val = 10000 * t.val + a.val; rw [e0]; omega
  | ⟨1, _⟩ => show win1_0.index t (1 : Fin 2) * 64 + 1 * b.val = b.val; rw [e1]; omega

theorem rd_1 (c : Dev nD) (t : Fin cfg1.N) (a : Fin 10000) (b : Fin 64) :
    (iblk1 V c 1 t : Vec Ideal S10000x64 .f32) (ix2 a b) = (V c main_v21 : S100000x64.Idx → Ideal .f32) (ix2 (row t.val (t_lt t) a) b) := by
  obtain ⟨e0, e1⟩ := ix_1 t
  unfold iblk1
  rw [View.read_apply]
  show V c main_v21 _ = _
  refine congrArg (V c main_v21 : S100000x64.Idx → Ideal .f32) (funext fun d => Fin.ext ?_)
  match d with
  | ⟨0, _⟩ => show win1_1.index t (0 : Fin 2) * 10000 + 1 * a.val = 10000 * t.val + a.val; rw [e0]; omega
  | ⟨1, _⟩ => show win1_1.index t (1 : Fin 2) * 64 + 1 * b.val = b.val; rw [e1]; omega

theorem rd_2 (c : Dev nD) (t : Fin cfg1.N) (a : Fin 10000) (b : Fin 1) :
    (iblk1 V c 2 t : Vec Ideal S10000x1 .f32) (ix2 a b) = (V c main_v9 : S100000x1.Idx → Ideal .f32) (ix2 (row t.val (t_lt t) a) b) := by
  obtain ⟨e0, e1⟩ := ix_2 t
  unfold iblk1
  rw [View.read_apply]
  show V c main_v9 _ = _
  refine congrArg (V c main_v9 : S100000x1.Idx → Ideal .f32) (funext fun d => Fin.ext ?_)
  match d with
  | ⟨0, _⟩ => show win1_2.index t (0 : Fin 2) * 10000 + 1 * a.val = 10000 * t.val + a.val; rw [e0]; omega
  | ⟨1, _⟩ => show win1_2.index t (1 : Fin 2) * 1 + 1 * b.val = b.val; rw [e1]; omega

theorem rd_3 (c : Dev nD) (t : Fin cfg1.N) (a : Fin 64) (b : Fin 64) :
    (iblk1 V c 3 t : Vec Ideal S64x64 .f32) (ix2 a b) = (V c main_arg5 : S64x64.Idx → Ideal .f32) (ix2 a b) := by
  obtain ⟨e0, e1⟩ := ix_3 t
  unfold iblk1
  rw [View.read_apply]
  show V c main_arg5 _ = _
  refine congrArg (V c main_arg5 : S64x64.Idx → Ideal .f32) (funext fun d => Fin.ext ?_)
  match d with
  | ⟨0, _⟩ => show win1_3.index t (0 : Fin 2) * 64 + 1 * a.val = a.val; rw [e0]; omega
  | ⟨1, _⟩ => show win1_3.index t (1 : Fin 2) * 64 + 1 * b.val = b.val; rw [e1]; omega

theorem rd_4 (c : Dev nD) (t : Fin cfg1.N) (a : Fin 1) (b : Fin 64) :
    (iblk1 V c 4 t : Vec Ideal S1x64 .f32) (ix2 a b) = (V c main_v32 : S1x64.Idx → Ideal .f32) (ix2 a b) := by
  obtain ⟨e0, e1⟩ := ix_4 t
  unfold iblk1
  rw [View.read_apply]
  show V c main_v32 _ = _
  refine congrArg (V c main_v32 : S1x64.Idx → Ideal .f32) (funext fun d => Fin.ext ?_)
  match d with
  | ⟨0, _⟩ => show win1_4.index t (0 : Fin 2) * 1 + 1 * a.val = a.val; rw [e0]; omega
  | ⟨1, _⟩ => show win1_4.index t (1 : Fin 2) * 64 + 1 * b.val = b.val; rw [e1]; omega

theorem rd_5 (c : Dev nD) (t : Fin cfg1.N) (a : Fin 64) (b : Fin 64) :
    (iblk1 V c 5 t : Vec Ideal S64x64 .f32) (ix2 a b) = (V c main_arg7 : S64x64.Idx → Ideal .f32) (ix2 a b) := by
  obtain ⟨e0, e1⟩ := ix_5 t
  unfold iblk1
  rw [View.read_apply]
  show V c main_arg7 _ = _
  refine congrArg (V c main_arg7 : S64x64.Idx → Ideal .f32) (funext fun d => Fin.ext ?_)
  match d with
  | ⟨0, _⟩ => show win1_5.index t (0 : Fin 2) * 64 + 1 * a.val = a.val; rw [e0]; omega
  | ⟨1, _⟩ => show win1_5.index t (1 : Fin 2) * 64 + 1 * b.val = b.val; rw [e1]; omega

theorem rd_6 (c : Dev nD) (t : Fin cfg1.N) (a : Fin 2) (b : Fin 64) :
    (iblk1 V c 6 t : Vec Ideal S2x64 .f32) (ix2 a b) = (V c main_arg8 : S2x64.Idx → Ideal .f32) (ix2 a b) := by
  obtain ⟨e0, e1⟩ := ix_6 t
  unfold iblk1
  rw [View.read_apply]
  show V c main_arg8 _ = _
  refine congrArg (V c main_arg8 : S2x64.Idx → Ideal .f32) (funext fun d => Fin.ext ?_)
  match d with
  | ⟨0, _⟩ => show win1_6.index t (0 : Fin 2) * 2 + 1 * a.val = a.val; rw [e0]; omega
  | ⟨1, _⟩ => show win1_6.index t (1 : Fin 2) * 64 + 1 * b.val = b.val; rw [e1]; omega

theorem rd_7 (c : Dev nD) (t : Fin cfg1.N) (a : Fin 1) (b : Fin 2) :
    (iblk1 V c 7 t : Vec Ideal S1x2 .f32) (ix2 a b) = (V c main_v33 : S1x2.Idx → Ideal .f32) (ix2 a b) := by
  obtain ⟨e0, e1⟩ := ix_7 t
  unfold iblk1
  rw [View.read_apply]
  show V c main_v33 _ = _
  refine congrArg (V c main_v33 : S1x2.Idx → Ideal .f32) (funext fun d => Fin.ext ?_)
  match d with
  | ⟨0, _⟩ => show win1_7.index t (0 : Fin 2) * 1 + 1 * a.val = a.val; rw [e0]; omega
  | ⟨1, _⟩ => show win1_7.index t (1 : Fin 2) * 2 + 1 * b.val = b.val; rw [e1]; omega

/-- What grid point `t` writes back: the body's stored value of the point's input blocks (the output window is not cut). -/
theorem flushed_gen (c : Dev nD) (t : Fin cfg1.N) :
    (dat1 V c).flushed 8 t = k1_pay1 (iblk1 V c 2 t) (iblk1 V c 0 t) (iblk1 V c 1 t) (iblk1 V c 3 t) (iblk1 V c 5 t) (iblk1 V c 4 t) (iblk1 V c 6 t) (iblk1 V c 7 t) := by
  show (cfg1.win 8).cut (grid1.coords t) ((dat1 V c).after 8 t) = _
  rw [after1_8]
  unfold out1_8
  rw [View.canon_unit_zero hz]
  simp only [View.ld_unit_zero (S := S10000x64) hz, View.ld_unit_zero (S := S10000x1) hz, View.ld_unit_zero (S := S64x64) hz, View.ld_unit_zero (S := S1x64) hz, View.ld_unit_zero (S := S2x64) hz, View.ld_unit_zero (S := S1x2) hz]
  rfl

end Geometry

/-- A whole-array function read through the output window's block at point `t`. -/
theorem read_out (G : S100000x2.Idx → Ideal .f32) (t : Fin cfg1.N) (a : Fin 10000) (b : Fin 2) :
    (((cfg1.win 8).blk t).view.read (Elt Ideal) G : Vec Ideal S10000x2 .f32) (ix2 a b) = G (ix2 (row t.val (t_lt t) a) b) := by
  obtain ⟨e0, e1⟩ := ix_8 t
  rw [View.read_apply]
  show G _ = _
  refine congrArg G (funext fun d => Fin.ext ?_)
  match d with
  | ⟨0, _⟩ => show win1_8.index t (0 : Fin 2) * 10000 + 1 * a.val = 10000 * t.val + a.val; rw [e0]; omega
  | ⟨1, _⟩ => show win1_8.index t (1 : Fin 2) * 2 + 1 * b.val = b.val; rw [e1]; omega

/-- An index of the output array is in point `t`'s block iff each coordinate is in the block's range. -/
theorem mem_blk (t : Fin cfg1.N) (i : S100000x2.Idx) :
    i ∈ ((cfg1.win 8).blk t).view.set ↔ ∀ a : Fin 2, win1_8.index t a * S10000x2.size a ≤ (i a).val ∧ (i a).val < win1_8.index t a * S10000x2.size a + S10000x2.size a := by
  show i ∈ ((View.whole main_v34).slice (win1_8.rect t)).set ↔ _
  rw [View.set_slice_whole, Rect.mem_set_unit]
  exact Iff.rfl

/-- The ten blocks tile the array: row `r` is in block `r / 10000`. -/
theorem cover (i : S100000x2.Idx) : ∃ t : Fin cfg1.N, (cfg1.win 8).flush t = true ∧ i ∈ ((cfg1.win 8).blk t).view.set := by
  have hi0 : (i 0).val < 100000 := (i 0).isLt
  have hi1 : (i 1).val < 2 := (i 1).isLt
  let t : Fin cfg1.N := ⟨(i 0).val / 10000, by rw [show cfg1.N = 10 from N_1]; omega⟩
  obtain ⟨e0, e1⟩ := ix_8 t
  refine ⟨t, flush1_8 t, ?_⟩
  rw [mem_blk]
  intro a
  match a with
  | ⟨0, _⟩ => show win1_8.index t (0 : Fin 2) * 10000 ≤ (i 0).val ∧ (i 0).val < win1_8.index t (0 : Fin 2) * 10000 + 10000
              rw [e0]; show (i 0).val / 10000 * 10000 ≤ (i 0).val ∧ (i 0).val < (i 0).val / 10000 * 10000 + 10000; omega
  | ⟨1, _⟩ => show win1_8.index t (1 : Fin 2) * 2 ≤ (i 1).val ∧ (i 1).val < win1_8.index t (1 : Fin 2) * 2 + 2
              rw [e1]; omega

/-! ## The second kernel's output array, at the contents the first kernel and the host left -/

variable (m : (ℓ : Loc nD τ sig) → Buf (Elt Ideal) ℓ) (ρ : Dev nD → PrngReg)

/-- The reference's result, of the kernel program's own arguments. -/
abbrev Out (c : Dev nD) : S100000x2.Idx → Ideal .f32 :=
  val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The two layers count the edges by one and the same scatter-addition. -/
theorem cnt_eq (x1 : (⟨Cert.ReferenceIdeal.S2x1200000, .i32⟩ : BufTy).Contents (Elt Ideal)) :
    val_main_v44 (F := Ideal) x1 = val_main_v17 (F := Ideal) x1 := by
  unfold val_main_v44 val_main_v17
  rw [show val_main_v42 (F := Ideal) = val_main_v15 (F := Ideal) from rfl,
    show val_main_v43 (F := Ideal) x1 = val_main_v16 (F := Ideal) x1 from rfl,
    show val_main_v41 (F := Ideal) = val_main_v14 (F := Ideal) from rfl]

/-- The classifier's bias row at `(0, j)` is the bias at `j`. -/
theorem bias2_row (x9 : S2.Idx → Ideal .f32) (j : Fin 2) :
    shapeCast S1x2 x9 shapeCasts_S2_S1x2 (ix2 0 j) = x9 (ix1 j) := by
  refine shapeCast_apply _ _ _ (ix1 j) ?_
  rw [Shape.rowMajor_val_one, Shape.rowMajor_val_two]
  show j.val = 0 * 2 + j.val
  omega

/-- What grid point `t` writes back is block `t` of the reference's result. -/
theorem flushed_eq (c : Dev nD) (t : Fin cfg1.N) :
    (dat1 (V5 m ρ) c).flushed 8 t = ((cfg1.win 8).blk t).view.read (Elt Ideal) (Out m c) := by
  rw [flushed_gen]
  funext y
  obtain ⟨p, j, rfl⟩ : ∃ (p : Fin 10000) (j : Fin 2), y = ix2 p j := ⟨y 0, y 1, eq_ix2 y⟩
  refine (layer2_block (iblk1 (V5 m ρ) c 2 t) (iblk1 (V5 m ρ) c 0 t) (iblk1 (V5 m ρ) c 1 t) (iblk1 (V5 m ρ) c 3 t) (iblk1 (V5 m ρ) c 5 t) (iblk1 (V5 m ρ) c 4 t)
    (iblk1 (V5 m ρ) c 6 t) (iblk1 (V5 m ρ) c 7 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) t.val (t_lt t)
    (fun p k => (rd_0 (V5 m ρ) c t p k).trans (congrFun (Entry.V5_agg m ρ c) _))
    (fun p k => (rd_1 (V5 m ρ) c t p k).trans (congrFun (Entry.V5_h m ρ c) _))
    (fun p => (((rd_2 (V5 m ρ) c t p 0).trans (congrFun (Entry.V5_deg m ρ c) _)).trans (Region0.deg_col _ _)).trans (by rw [cnt_eq]))
    (fun q k => (rd_3 (V5 m ρ) c t q k).trans (congrFun (Entry.V5_wl m ρ c) _))
    (fun q k => (rd_5 (V5 m ρ) c t q k).trans (congrFun (Entry.V5_wr m ρ c) _))
    (fun q => ((rd_4 (V5 m ρ) c t 0 q).trans (congrFun (Entry.V5_b m ρ c) _)).trans (Region0.bias_row _ q))
    (fun j q => (rd_6 (V5 m ρ) c t j q).trans (congrFun (Entry.V5_wc m ρ c) _))
    (fun j => ((rd_7 (V5 m ρ) c t 0 j).trans (congrFun (Entry.V5_bc m ρ c) _)).trans (bias2_row _ j)) p j).trans ?_
  exact (read_out (Out m c) t p j).symm

/-- The array the second kernel leaves is the reference's result. -/
theorem final (c : Dev nD) : (dat1 (V5 m ρ) c).arrAt 8 cfg1.N = Out m c :=
  (dat1 (V5 m ρ) c).arrAt_eq_of_cover 8 (Out m c) (fun t _ => flushed_eq m ρ c t) cover

/-- The last boundary's contents at the result buffer: the reference's result. -/
theorem W6_out (c : Dev nD) : W6 m ρ c (Proc.devRef .tc main_v34) = Out m c :=
  (W6_arr m ρ c 8).trans (final m ρ c)

end Cert.Sage.Region1

end
-- ==== Proof.lean ====
/-
  Two GraphSAGE layers with mean aggregation and a linear classifier, as two tiled kernels among host gathers
  and scatter-additions, against the plain array program: equal results on the extended reals.

  Both programs gather the node features along the edge sources and scatter-add them along the edge targets, count
  the incoming edges of every node by the same scatter-addition and clip the count from below at one.  The kernel
  program then runs the dense part of each layer — mean, two 64-wide products with transposed weights, bias, and for
  the first layer the rectifier, for the second the classifier's product and bias — in a kernel tiled over blocks of
  ten thousand rows; the reference runs it on whole arrays.  On the extended reals a rounding to bf16 is the identity
  and a matrix product is a plain finite sum, so row by row the two agree term by term, except that the kernel
  multiplies the neighbourhood sum by the reciprocal of the clipped count where the reference divides by it: for a
  divisor that is not zero these are one value (`Cert.Sage.mean_eq`).  No operand needs to be finite.

  The modules: `Mean` (that law); `Body0`, `Body1` (what each kernel body stores at an entry of its block);
  `Ref0`, `Ref1` (the reference's two stages at an entry); `Layer1`, `Layer2` (a block of the kernel against the
  rows of the reference it covers); `Entry0`, `Entry1` (what each kernel finds in its operand arrays: the host
  operations before it, read as the reference's own terms); `Region0`, `Region1` (each kernel's output array is the
  reference's stage: its blocks tile the array); `RunNamed` (the program's run with the result buffer named).
-/
import proofs.«178372_j12575664242835_2_alg».proof.Defs
import proofs.«178372_j12575664242835_2_alg».proof.Proof.Gen.Kernel
import proofs.«178372_j12575664242835_2_alg».proof.Proof.Gen.Kernel.Skeleton
import proofs.«178372_j12575664242835_2_alg».proof.Proof.Gen.Kernel.Launch
import proofs.«178372_j12575664242835_2_alg».proof.Proof.Gen.Kernel.Points
import proofs.«178372_j12575664242835_2_alg».proof.Proof.Gen.Kernel.Frame
import proofs.«178372_j12575664242835_2_alg».proof.Proof.Gen.KernelIdeal
import proofs.«178372_j12575664242835_2_alg».proof.Proof.Gen.KernelIdeal.Skeleton
import proofs.«178372_j12575664242835_2_alg».proof.Proof.Gen.KernelIdeal.Launch
import proofs.«178372_j12575664242835_2_alg».proof.Proof.Gen.KernelIdeal.Points
import proofs.«178372_j12575664242835_2_alg».proof.Proof.Gen.KernelIdeal.Frame
import proofs.«178372_j12575664242835_2_alg».proof.Proof.Gen.ReferenceIdeal
import proofs.«178372_j12575664242835_2_alg».proof.Proof.Gen.Pre_finite_inputs
import proofs.«178372_j12575664242835_2_alg».proof.Proof.Gen.ReferenceIdeal.Read
import proofs.«178372_j12575664242835_2_alg».proof.Proof.RunNamed
import proofs.«178372_j12575664242835_2_alg».proof.Proof.Region1
import Idealize.ShloMosaic.Adequacy
import Idealize.ShloMosaic.Init

noncomputable section

namespace Cert.Proof

open Idealize.ShloMosaic Idealize.ShloMosaic.TcCoe Idealize.SL.Sem

/-- The word-level kernel program runs, and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories agreeing on the arguments both programs end with one result: the kernel program's result buffer
    holds the last boundary's contents, which are the reference's result stage of the kernel program's own arguments
    (`Region1.W6_out`), and the reference's run ends at the same stage of its arguments, which are the same arrays. -/
theorem algebraic : Cert.algebraic_KernelIdeal_ReferenceIdeal := by
  intro m ρ m' ρ' _ hagree
  refine ⟨fun c => Cert.Sage.Region1.Out m c, ?_, ?_⟩
  · exact (θ_run Cert.KernelIdeal.defs _ _).mono
      (fun _ h c => ⟨(h c).1.trans (Cert.Sage.Region1.W6_out m ρ c), (h c).2⟩)
      (Cert.Sage.Run.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq]
    obtain ⟨h0, h1, h2, h3, h4, h5, h6, h7, h8, h9⟩ := hagree c
    rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
